-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S16x512x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S8192x4096 : S16x512x64x64.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S8192x4096_S16x512x64x64 : S8192x4096.ShapeCasts S16x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S_ : Shape := ⟨0, ![]⟩
abbrev S16x512 : Shape := ⟨2, ![16, 512]⟩
abbrev S16x512x1 : Shape := ⟨3, ![16, 512, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S_, .f32⟩
  | .hbm, ⟨5, _⟩ => ⟨S16x512, .f32⟩
  | .hbm, ⟨6, _⟩ => ⟨S16x512x1, .f32⟩
  | .hbm, ⟨7, _⟩ => ⟨S_, .f32⟩
  | .hbm, ⟨8, _⟩ => ⟨S16x512x1, .f32⟩
  | .hbm, ⟨9, _⟩ => ⟨S16x512x1, .f32⟩
  | .hbm, ⟨10, _⟩ => ⟨S_, .i32⟩
  | .hbm, ⟨11, _⟩ => ⟨S_, .f32⟩
  | .hbm, ⟨12, _⟩ => ⟨S16x512, .f32⟩
  | .hbm, ⟨13, _⟩ => ⟨S16x512x1, .f32⟩
  | .hbm, ⟨14, _⟩ => ⟨S_, .f32⟩
  | .hbm, ⟨15, _⟩ => ⟨S16x512x1, .f32⟩
  | .hbm, ⟨16, _⟩ => ⟨S16x512x1, .f32⟩
  | .hbm, ⟨17, _⟩ => ⟨S16x512x4096, .f32⟩
  | .hbm, ⟨18, _⟩ => ⟨S16x512x4096, .f32⟩
  | .hbm, ⟨19, _⟩ => ⟨S16x512x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x512, .f32⟩
  | .hbm, ⟨25, _⟩ => ⟨S16x512x1, .f32⟩
  | .hbm, ⟨26, _⟩ => ⟨S16x512x1, .f32⟩
  | .hbm, ⟨27, _⟩ => ⟨S16x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S16x512x1, .f32⟩
  | .hbm, ⟨33, _⟩ => ⟨S16x512x1, .f32⟩
  | .hbm, ⟨34, _⟩ => ⟨S16x512x1, .f32⟩
  | .hbm, ⟨35, _⟩ => ⟨S_, .f32⟩
  | .hbm, ⟨36, _⟩ => ⟨S16x512x1, .f32⟩
  | .hbm, ⟨37, _⟩ => ⟨S16x512x1, .f32⟩
  | .hbm, ⟨38, _⟩ => ⟨S_, .f32⟩
  | .hbm, ⟨39, _⟩ => ⟨S16x512, .f32⟩
  | .hbm, ⟨40, _⟩ => ⟨S16x512x1, .f32⟩
  | .hbm, ⟨41, _⟩ => ⟨S_, .f32⟩
  | .hbm, ⟨42, _⟩ => ⟨S16x512x1, .f32⟩
  | .hbm, ⟨43, _⟩ => ⟨S16x512x1, .f32⟩
  | .hbm, ⟨44, _⟩ => ⟨S_, .i32⟩
  | .hbm, ⟨45, _⟩ => ⟨S_, .f32⟩
  | .hbm, ⟨46, _⟩ => ⟨S16x512, .f32⟩
  | .hbm, ⟨47, _⟩ => ⟨S16x512x1, .f32⟩
  | .hbm, ⟨48, _⟩ => ⟨S_, .f32⟩
  | .hbm, ⟨49, _⟩ => ⟨S16x512x1, .f32⟩
  | .hbm, ⟨50, _⟩ => ⟨S16x512x1, .f32⟩
  | .hbm, ⟨51, _⟩ => ⟨S16x512x4096, .f32⟩
  | .hbm, ⟨52, _⟩ => ⟨S16x512x4096, .f32⟩
  | .hbm, ⟨53, _⟩ => ⟨S16x512x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x512, .f32⟩
  | .hbm, ⟨59, _⟩ => ⟨S16x512x1, .f32⟩
  | .hbm, ⟨60, _⟩ => ⟨S16x512x1, .f32⟩
  | .hbm, ⟨61, _⟩ => ⟨S16x512x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S16x512x1, .f32⟩
  | .hbm, ⟨67, _⟩ => ⟨S16x512x1, .f32⟩
  | .hbm, ⟨68, _⟩ => ⟨S16x512x1, .f32⟩
  | .hbm, ⟨69, _⟩ => ⟨S_, .f32⟩
  | .hbm, ⟨70, _⟩ => ⟨S16x512x1, .f32⟩
  | .hbm, ⟨71, _⟩ => ⟨S16x512x1, .f32⟩
  | .hbm, ⟨72, _⟩ => ⟨S16x512x4096, .f32⟩
  | .hbm, ⟨73, _⟩ => ⟨S16x512x4096, .f32⟩
  | .hbm, ⟨74, _⟩ => ⟨S16x512x4096, .f32⟩
  | .hbm, ⟨75, _⟩ => ⟨S16x512x4096, .f32⟩
  | .hbm, ⟨76, _⟩ => ⟨S16x512x4096, .f32⟩
  | .hbm, ⟨77, _⟩ => ⟨S16x512x4096, .f32⟩
  | .hbm, ⟨78, _⟩ => ⟨S16x512x4096, .f32⟩
  | .hbm, ⟨79, _⟩ => ⟨S16x512x4096, .f32⟩
  | .hbm, ⟨80, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_cst_3 : Ref sig .tc := ⟨.hbm, 28, rfl⟩
abbrev main_call0_call0_v13 : Ref sig .tc := ⟨.hbm, 29, rfl⟩
abbrev main_call0_call0_cst_4 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_v0 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_cst_3 : Ref sig .tc := ⟨.hbm, 41, rfl⟩
abbrev main_v11 : Ref sig .tc := ⟨.hbm, 42, rfl⟩
abbrev main_v12 : Ref sig .tc := ⟨.hbm, 43, rfl⟩
abbrev main_c_4 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_cst_0 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_cst_1 : Ref sig .tc := ⟨.hbm, 55, rfl⟩
abbrev main_call1_call0_v8 : Ref sig .tc := ⟨.hbm, 56, rfl⟩
abbrev main_call1_call0_cst_2 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_call0_v12 : Ref sig .tc := ⟨.hbm, 61, rfl⟩
abbrev main_call1_call0_cst_3 : Ref sig .tc := ⟨.hbm, 62, rfl⟩
abbrev main_call1_call0_v13 : Ref sig .tc := ⟨.hbm, 63, rfl⟩
abbrev main_call1_call0_cst_4 : Ref sig .tc := ⟨.hbm, 64, rfl⟩
abbrev main_call1_call0_call0_v0 : Ref sig .tc := ⟨.hbm, 65, rfl⟩
abbrev main_call1_call0_call0_v1 : Ref sig .tc := ⟨.hbm, 66, rfl⟩
abbrev main_call1_v0 : Ref sig .tc := ⟨.hbm, 67, rfl⟩
abbrev main_v13 : Ref sig .tc := ⟨.hbm, 68, rfl⟩
abbrev main_cst_5 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x4096_S16x512_d2 : S16x512x4096.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S16x512x1_S16x512x4096_0_1_2 : S16x512x1.BroadcastsInDim S16x512x4096 (![0, 1, 2] : Fin 3 → Fin S16x512x4096.rank)
  shapeCasts_S16x512x4096_S16x512x64x64 : S16x512x4096.ShapeCasts S16x512x64x64

variable [Facts₀]

class Facts : Prop extends Facts₀ where

variable [Facts]
-- ==== Proof.Spec.lean ====
/-
  The two row formulas of adaptive instance normalisation, and the whole-array functions built from them.

  An array of shape [16, 512, 64, 64] is 8192 rows of 4096 entries: row (b, c) holds the entries (b, c, h, w) in the
  order of h * 64 + w.  Each entry of a row x is normalised with the row's own mean and clamped standard deviation and
  re-scaled with those of the matching row z of a second array:
      out = (x_k - mean x) / sd x * sd z + mean z,      sd v = max (sqrt (var v)) eps,
  var v the second moment about the mean divided by 4095.  One program computes var from the two power sums
  (sum of squares minus the squared sum over 4096), and multiplies by the quotient sd z / sd x ("kRow"); the other
  centres first, divides by sd x and then multiplies by sd z ("rRow").  The constants are the single-precision words of
  4096, 4095 and the rounding of 1e-5.
-/
import Idealize.ShloMosaic.PureOps.Ideal
import Idealize.ShloMosaic.Lib.ValueIdx

noncomputable section

open scoped BigOperators

namespace Adain

open Idealize.ShloMosaic Idealize.ShloMosaic.ValueIdx

abbrev S4 : Shape := ⟨4, ![16, 512, 64, 64]⟩

/-- The row length, as the single-precision word of 4096 reads. -/
def c4096 : EReal := Ideal.ofBits .f32 0x45800000#32
/-- The unbiased divisor, as the single-precision word of 4095 reads. -/
def c4095 : EReal := Ideal.ofBits .f32 0x457FF000#32
/-- The floor of the standard deviation, as the word that rounds 1e-5 reads. -/
def ceps : EReal := Ideal.ofBits .f32 0x3727C5AC#32

theorem c4096_eq : c4096 = ((4096 : ℝ) : EReal) := by
  unfold c4096; simp [Ideal.ofBits, Ideal.ieee, -EReal.coe_mul]; norm_num

theorem c4095_eq : c4095 = ((4095 : ℝ) : EReal) := by
  unfold c4095; simp [Ideal.ofBits, Ideal.ieee, -EReal.coe_mul]; norm_num

theorem ceps_pos : ∃ e : ℝ, 0 < e ∧ ceps = (e : EReal) := by
  refine ⟨_, ?_, by unfold ceps; simp [Ideal.ofBits, Ideal.ieee, -EReal.coe_mul]; rfl⟩
  norm_num

theorem ofBits_zero : Ideal.ofBits .f32 0x00000000#32 = 0 := by
  simp [Ideal.ofBits, Ideal.ieee]

/-- The clamped standard deviation of a row from its two power sums. -/
def sdK (x : Fin 4096 → EReal) : EReal :=
  max (Ideal.sqrt (Ideal.div ((∑ j, x j * x j) - Ideal.div ((∑ j, x j) * (∑ j, x j)) c4096) c4095)) ceps

/-- The clamped standard deviation of a row from its centred entries. -/
def sdR (x : Fin 4096 → EReal) : EReal :=
  max (Ideal.sqrt (Ideal.div (∑ j, (x j - Ideal.div (∑ i, x i) c4096) * (x j - Ideal.div (∑ i, x i) c4096)) c4095)) ceps

/-- Entry k of the normalised row, the scale taken as one quotient. -/
def kRow (x z : Fin 4096 → EReal) (k : Fin 4096) : EReal :=
  (x k - Ideal.div (∑ j, x j) c4096) * Ideal.div (sdK z) (sdK x) + Ideal.div (∑ j, z j) c4096

/-- Entry k of the normalised row, divided first and multiplied after. -/
def rRow (x z : Fin 4096 → EReal) (k : Fin 4096) : EReal :=
  Ideal.div (x k - Ideal.div (∑ j, x j) c4096) (sdR x) * sdR z + Ideal.div (∑ j, z j) c4096

/-- Row (b, c) of an array, its entries in the order of h * 64 + w. -/
def rowAt (X : S4.Idx → EReal) (b : Fin 16) (c : Fin 512) : Fin 4096 → EReal :=
  fun k => X (ix4 b c ⟨k.val / 64, by have := k.isLt; omega⟩ ⟨k.val % 64, Nat.mod_lt _ (by norm_num)⟩)

/-- The place of entry (h, w) in its row. -/
def colAt (h w : Fin 64) : Fin 4096 := ⟨h.val * 64 + w.val, by have := h.isLt; have := w.isLt; omega⟩

/-- The whole array, every row by kRow. -/
def specK (X Z : S4.Idx → EReal) : S4.Idx → EReal := fun i =>
  kRow (rowAt X ⟨(i 0).val, (i 0).isLt⟩ ⟨(i 1).val, (i 1).isLt⟩) (rowAt Z ⟨(i 0).val, (i 0).isLt⟩ ⟨(i 1).val, (i 1).isLt⟩)
    (colAt ⟨(i 2).val, (i 2).isLt⟩ ⟨(i 3).val, (i 3).isLt⟩)

/-- The whole array, every row by rRow. -/
def specR (X Z : S4.Idx → EReal) : S4.Idx → EReal := fun i =>
  rRow (rowAt X ⟨(i 0).val, (i 0).isLt⟩ ⟨(i 1).val, (i 1).isLt⟩) (rowAt Z ⟨(i 0).val, (i 0).isLt⟩ ⟨(i 1).val, (i 1).isLt⟩)
    (colAt ⟨(i 2).val, (i 2).isLt⟩ ⟨(i 3).val, (i 3).isLt⟩)

theorem specK_ix4 (X Z : S4.Idx → EReal) (b : Fin 16) (c : Fin 512) (h w : Fin 64) :
    specK X Z (ix4 b c h w) = kRow (rowAt X b c) (rowAt Z b c) (colAt h w) := rfl

theorem specR_ix4 (X Z : S4.Idx → EReal) (b : Fin 16) (c : Fin 512) (h w : Fin 64) :
    specR X Z (ix4 b c h w) = rRow (rowAt X b c) (rowAt Z b c) (colAt h w) := rfl

end Adain

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.KPay.lean ====
/-
  The kernel body's stored value at one entry of its block.

  The block is 256 rows of 4096 entries.  At row p, column q the body's value is the row formula "kRow" of row p of the
  two loaded blocks: the four row sums are lane reductions kept as a column, the means and the variances are computed on
  that column, and the scale and the shift are stretched back along the row.
-/
import proofs.«164123_j67224828117169_2_alg».proof.Proof.Gen.KernelIdeal.Skeleton
import proofs.«164123_j67224828117169_2_alg».proof.Proof.Spec
import proofs.«164123_j67224828117169_2_alg».proof.Proof.LibLayout
import proofs.«164123_j67224828117169_2_alg».proof.Proof.LibRowCol
import Idealize.ShloMosaic.Lib.ValueIdx
import Idealize.ShloMosaic.Lib.Pipeline.Value

noncomputable section

open scoped BigOperators

namespace Cert.KernelIdeal.KPay

open Cert.KernelIdeal Cert.KernelIdeal.Gen Idealize.ShloMosaic Idealize.ShloMosaic.ValueIdx

theorem sqrt_apply {s : Shape} {φ : FTy} (x : FVec Ideal s φ) (i : s.Idx) : sqrt x i = Ideal.sqrt (x i) := rfl

/-- A row sum kept as a column, at (p, u): the sum of row p. -/
theorem colSum_apply (v : FVec Ideal S256x4096 .f32) (hφ : FTy.f32 = FTy.f32 ∨ FTy.f32 = FTy.bf16)
    (hacc : (0x00000000#32 : BitVec FTy.f32.bits) = 0x00000000#32) (p : Fin 256) (u : Fin 1) :
    shapeCast S256x1 (multiReduction .add [1] S256 v 0x00000000#32 reduces_S256x4096_S256 hφ hacc) shapeCasts_S256_S256x1 (ix2 p u)
      = ∑ k : Fin 4096, v (ix2 p k) :=
  (PushPull.Layout.cast_a_a1 _ shapeCasts_S256_S256x1 p u).trans
    (PushPull.Layout.sum_ab_1 v 0x00000000#32 reduces_S256x4096_S256 hφ hacc p)

/-- A column stretched back along the row, at (p, q): the column's entry of row p. -/
theorem stretch_apply (v : FVec Ideal S256x1 .f32) (p : Fin 256) (q : Fin 4096) :
    broadcastTo S256x4096 v broadcasts_S256x1_S256x4096 (ix2 p q) = v (ix2 p (0 : Fin 1)) :=
  RowCol.broadcastTo_a1_ab_apply v broadcasts_S256x1_S256x4096 p q

theorem pay_apply (x0 x1 : Vec Ideal S256x4096 .f32) (p : Fin 256) (q : Fin 4096) :
    k0_pay1 (F := Ideal) x0 x1 (ix2 p q)
      = Adain.kRow (fun k => x0 (ix2 p k)) (fun k => x1 (ix2 p k)) q := by
  unfold k0_pay1
  simp only [shapeCast_self, addf_apply, mulf_apply, subf_apply, stretch_apply, divf_apply, maximumf_apply, sqrt_apply,
    broadcast_apply, colSum_apply]
  unfold Adain.kRow Adain.sdK Adain.c4096 Adain.c4095 Adain.ceps
  simp only [Ideal.ofBits_def]
  rw [colSum_apply x0, colSum_apply x1, colSum_apply (mulf x0 x0), colSum_apply (mulf x1 x1)]
  simp only [mulf_apply]

end Cert.KernelIdeal.KPay

end
-- ==== Proof.KValueRows.lean ====
/-
  The normalised array as 8192 rows, and its two reshapes.

  An array of shape [16, 512, 64, 64] and the array of shape [8192, 4096] with the same entries in the same row-major
  order are related row by row: row b * 512 + c of the second is row (b, c) of the first, and its entry h * 64 + w is
  the entry (b, c, h, w).  So applying the row formula "kRow" to every row of the two reshaped arrays and reshaping
  the result back gives the whole-array function "specK".
-/
import proofs.«164123_j67224828117169_2_alg».proof.Proof.Spec
import Idealize.ShloMosaic.Lib.Pipeline.Value
import Idealize.ShloMosaic.Lib.ValueIdx

noncomputable section

open scoped BigOperators

namespace Adain.Rows

open Idealize.ShloMosaic Idealize.ShloMosaic.ValueIdx

abbrev S2 : Shape := ⟨2, ![8192, 4096]⟩

/-- The place of row (b, c) among the 8192 rows. -/
def rowIx (b : Fin 16) (c : Fin 512) : Fin 8192 := ⟨b.val * 512 + c.val, by have := b.isLt; have := c.isLt; omega⟩

/-- Every row of a pair of [8192, 4096] arrays by kRow: entry (r, q) is entry q of the row formula of the two rows r. -/
def rowsK (A0 A1 : S2.Idx → EReal) : S2.Idx → EReal := fun j =>
  Adain.kRow (fun k => A0 (ix2 ⟨(j 0).val, idx2_lt0 j⟩ k)) (fun k => A1 (ix2 ⟨(j 0).val, idx2_lt0 j⟩ k))
    ⟨(j 1).val, idx2_lt1 j⟩

theorem rowsK_ix2 (A0 A1 : S2.Idx → EReal) (r : Fin 8192) (q : Fin 4096) :
    rowsK A0 A1 (ix2 r q) = Adain.kRow (fun k => A0 (ix2 r k)) (fun k => A1 (ix2 r k)) q := rfl

/-- Row b * 512 + c of the reshaped array is row (b, c) of the array. -/
theorem cast_rows (X : Adain.S4.Idx → EReal) (h : Adain.S4.ShapeCasts S2) (b : Fin 16) (c : Fin 512) (k : Fin 4096) :
    shapeCast S2 X h (ix2 (rowIx b c) k) = Adain.rowAt X b c k := by
  unfold Adain.rowAt
  refine shapeCast_apply X h _ _ ?_
  rw [Shape.rowMajor_val_four, Shape.rowMajor_val_two]
  show ((b.val * 512 + c.val) * 64 + k.val / 64) * 64 + k.val % 64 = (b.val * 512 + c.val) * 4096 + k.val
  omega

/-- Entry (b, c, h, w) of the array reshaped back is entry h * 64 + w of row b * 512 + c. -/
theorem cast_back (Y : S2.Idx → EReal) (h : S2.ShapeCasts Adain.S4) (b : Fin 16) (c : Fin 512) (hh w : Fin 64) :
    shapeCast Adain.S4 Y h (ix4 b c hh w) = Y (ix2 (rowIx b c) (Adain.colAt hh w)) := by
  refine shapeCast_apply Y h _ _ ?_
  rw [Shape.rowMajor_val_four, Shape.rowMajor_val_two]
  show (b.val * 512 + c.val) * 4096 + (hh.val * 64 + w.val) = ((b.val * 512 + c.val) * 64 + hh.val) * 64 + w.val
  omega

/-- Reshape both arrays to rows, apply the row formula to every row, reshape back: the whole-array function. -/
theorem cast_rowsK_cast (X Z : Adain.S4.Idx → EReal) (h : Adain.S4.ShapeCasts S2) (h' : S2.ShapeCasts Adain.S4) :
    shapeCast Adain.S4 (rowsK (shapeCast S2 X h) (shapeCast S2 Z h)) h' = Adain.specK X Z := by
  funext i
  obtain ⟨b, c, hh, w, rfl⟩ : ∃ (b : Fin 16) (c : Fin 512) (hh w : Fin 64), i = ix4 b c hh w :=
    ⟨i 0, i 1, i 2, i 3, eq_ix4 i⟩
  rw [cast_back, rowsK_ix2, Adain.specK_ix4]
  simp only [cast_rows]

end Adain.Rows

end
-- ==== Proof.KValue.lean ====
/-
  The kernel program's value: its result buffer ends holding the whole-array function "specK" of its two arguments.

  The program reshapes both [16, 512, 64, 64] arguments to [8192, 4096], runs one pipeline over 32 grid points and
  reshapes the pipeline's output array back.  At point t every window's block is rows 256 t .. 256 t + 255, all 4096
  columns.  The body's stored value at entry (p, q) of its block is the row formula of row p of the two loaded blocks,
  and row p of a block at point t is row 256 t + p of its array; so what point t writes back is block t of ONE
  function of the two arrays the pipeline reads: every row by the row formula ("rowsK").  Row r lies in the block of
  point r / 256, so the 32 blocks cover the output array and it ends holding that function.  Read through the two
  reshapes in front and the reshape behind, it is "specK" of the arguments.
-/
import proofs.«164123_j67224828117169_2_alg».proof.Proof.Gen.KernelIdeal.Frame
import proofs.«164123_j67224828117169_2_alg».proof.Proof.KPay
import proofs.«164123_j67224828117169_2_alg».proof.Proof.KValueRows
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Adain.Rows (rowsK)

variable (m : (ℓ : Loc nD τ sig) → Buf (Elt Ideal) ℓ) (ρ : Dev nD → PrngReg)

theorem hz : (![0, 0] : Fin 2 → Nat) = fun _ => 0 := funext fun a => by fin_cases a <;> rfl

/-- The body's value at an entry of its block is the row formula of the array rows the block's rows are. -/
theorem pay_rows (A0 A1 : S8192x4096.Idx → EReal) (x0 x1 : Vec Ideal S256x4096 .f32) (j : S256x4096.Idx) (i : S8192x4096.Idx)
    (h0 : ∀ k : Fin 4096, x0 (ix2 ⟨(j 0).val, idx2_lt0 j⟩ k) = A0 (ix2 ⟨(i 0).val, idx2_lt0 i⟩ k))
    (h1 : ∀ k : Fin 4096, x1 (ix2 ⟨(j 0).val, idx2_lt0 j⟩ k) = A1 (ix2 ⟨(i 0).val, idx2_lt0 i⟩ k))
    (hq : (i 1).val = (j 1).val) :
    k0_pay1 (F := Ideal) x0 x1 j = rowsK A0 A1 i := by
  obtain ⟨p, q, rfl⟩ : ∃ (p : Fin 256) (q : Fin 4096), j = ix2 p q := ⟨j 0, j 1, eq_ix2 j⟩
  obtain ⟨r, s, rfl⟩ : ∃ (r : Fin 8192) (s : Fin 4096), i = ix2 r s := ⟨i 0, i 1, eq_ix2 i⟩
  rw [KPay.pay_apply, Adain.Rows.rowsK_ix2]
  obtain rfl : s = q := Fin.ext hq
  have e0 : (fun k => x0 (ix2 p k)) = fun k => A0 (ix2 r k) := funext h0
  have e1 : (fun k => x1 (ix2 p k)) = fun k => A1 (ix2 r k) := funext h1
  rw [e0, e1]

/-- The windows' index maps, decided over the grid: every window's block at point t is block (t, 0), that is rows
    256 t .. 256 t + 255 and every column. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the rows' function of the two arrays the region finds. -/
theorem flushed_eq (c : Dev nD) (t : Fin cfg0.N) :
    (dats m 0 c).flushed 2 t
      = ((cfg0.win 2).blk t).view.read (Elt Ideal) (rowsK (V m c main_v0) (V m c main_v1)) := by
  show (cfg0.win 2).cut (grid0.coords t) ((dats m 0 c).after 2 t) = _
  rw [after0_2]
  unfold out0_2
  rw [View.canon_unit_zero hz]
  simp only [View.ld_unit_zero (S := S256x4096) hz]
  obtain ⟨e00, e01, e10, e11, e20, e21⟩ := idx_facts t
  funext j
  show k0_pay1 (F := Ideal) (iblk m c 0 t) (iblk m c 1 t) j
    = rowsK (V m c main_v0) (V m c main_v1) (((cfg0.win 2).blk t).view.emb j)
  refine pay_rows (V m c main_v0) (V m c main_v1) (iblk m c 0 t) (iblk m c 1 t) j (((cfg0.win 2).blk t).view.emb j)
    (fun k => ?_) (fun k => ?_) ?_
  · show V m c main_v0 (((cfg0.win 0).blk t).view.emb (ix2 ⟨(j 0).val, idx2_lt0 j⟩ k)) = V m c main_v0 _
    refine congrArg (V m c main_v0) (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 4096 + 1 * k.val = k.val
      omega
  · show V m c main_v1 (((cfg0.win 1).blk t).view.emb (ix2 ⟨(j 0).val, idx2_lt0 j⟩ k)) = V m c main_v1 _
    refine congrArg (V m c main_v1) (funext fun a => Fin.ext ?_)
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 4096 + 1 * k.val = k.val
      omega
  · show win0_2.index t (1 : Fin 2) * 4096 + 1 * (j 1).val = (j 1).val
    omega

/-- An index of the array is in point t's block iff each coordinate is in the block's range on its axis. -/
theorem mem_blk (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- Row r lies in the block of point r / 256: the 32 blocks cover the array. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The region's output array after the last point: every row by the row formula of the arrays the region finds. -/
theorem final (c : Dev nD) : (dats m 0 c).arrAt 2 cfg0.N = rowsK (V m c main_v0) (V m c main_v1) :=
  (dats m 0 c).arrAt_eq_of_cover 2 (rowsK (V m c main_v0) (V m c main_v1)) (fun t _ => flushed_eq m c t) cover

/-- The first array the region finds is the first argument reshaped to rows. -/
theorem V_v0 (c : Dev nD) : (V m c main_v0 : S8192x4096.Idx → EReal)
    = shapeCast S8192x4096 (m ((c : Thread nD τ).loc main_arg0)) shapeCasts_S16x512x64x64_S8192x4096 := by
  show StableHlo.after hostOps0 (fun b => m (c, b)) (Proc.devRef .tc main_v0) = _
  after_results
  rfl

/-- The second array the region finds is the second argument reshaped to rows. -/
theorem V_v1 (c : Dev nD) : (V m c main_v1 : S8192x4096.Idx → EReal)
    = shapeCast S8192x4096 (m ((c : Thread nD τ).loc main_arg1)) shapeCasts_S16x512x64x64_S8192x4096 := by
  show StableHlo.after hostOps0 (fun b => m (c, b)) (Proc.devRef .tc main_v1) = _
  after_results
  rfl

/-- The program's result: the region's final array reshaped back. -/
theorem tail_v3 (c : Dev nD) : Pipeline.afterTail₀ cfgs (dats m) 0 (V0 m) [hostOps1] c main_v3
    = shapeCast S16x512x64x64 (rowsK (V m c main_v0) (V m c main_v1)) shapeCasts_S8192x4096_S16x512x64x64 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = rowsK (V m c main_v0) (V m c main_v1) :=
    (Pipeline.withArrays_arr spec0 launch0.win.arr_inj c _ _ 2).trans (final m c)
  rw [e]
  rfl

/-- The program's result is the whole-array function of its two arguments. -/
theorem value (c : Dev nD) : Pipeline.afterTail₀ cfgs (dats m) 0 (V0 m) [hostOps1] c main_v3
    = Adain.specK (m ((c : Thread nD τ).loc main_arg0)) (m ((c : Thread nD τ).loc main_arg1)) := by
  rw [tail_v3, V_v0, V_v1]
  exact Adain.Rows.cast_rowsK_cast _ _ _ _

/-- The run, read: the result buffer ends at the whole-array function of the arguments, the arguments as launched. -/
theorem run : θ_run (defs (F := Ideal)) (onTc (τ := τ) (main (F := Ideal))) ⟨m, fun _ => 0, ρ⟩ fun r => ∀ c : Dev nD,
      r.2.mem ((c.tc : Thread nD τ).loc main_v3)
          = Adain.specK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefTerm.lean ====
/-
  The reference program's result as one pure term of its two argument arrays.

  Both arrays are reshaped to [16, 512, 4096].  A row's sum is the host reduction along the last axis, kept as a
  [16, 512, 1] column; the mean is that column over the splat of 4096; the variance is the sum of the squared centred
  entries over the splat of 4096 minus the degrees of freedom removed (an integer, converted), chosen by a select on
  "that divisor is positive" against the splat of a not-a-number word; the standard deviation is the square root of the
  variance, clamped below by the splat of the word that rounds 1e-5.  The result is
  (x - mean x) / sd x * sd z + mean z, every column stretched along its row, reshaped back to [16, 512, 64, 64].
-/
import proofs.«164123_j67224828117169_2_alg».proof.ReferenceIdeal
import proofs.«164123_j67224828117169_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- A [16, 512, 1] column stretched along the rows. -/
def stretch (v : FVec F S16x512x1 .f32) : FVec F S16x512x4096 .f32 :=
  broadcastInDim S16x512x4096 ![0, 1, 2] bcast_S16x512x1_S16x512x4096_0_1_2 v

/-- One scalar at every place of a column. -/
def splatOf (s : FVec F S_ .f32) : FVec F S16x512x1 .f32 :=
  broadcastInDim S16x512x1 ![] bcast_S_S16x512x1 s

/-- The sum of every row, as a column. -/
def rowSum (x : FVec F S16x512x4096 .f32) : FVec F S16x512x1 .f32 :=
  broadcastInDim S16x512x1 ![0, 1] bcast_S16x512_S16x512x1_0_1
    (Host.reduceAdd x (constant S_ .f32 0x00000000#32) reducesTo_S16x512x4096_S16x512_d2 h_S_)

/-- The mean of every row. -/
def meanOf (x : FVec F S16x512x4096 .f32) : FVec F S16x512x1 .f32 :=
  Host.divf (rowSum x) (splatOf (constant S_ .f32 0x45800000#32))

/-- The variance's divisor: 4096 minus the degrees of freedom removed. -/
def divisor (ddof : IVec S_ 32) : FVec F S_ .f32 :=
  subf (constant S_ .f32 0x45800000#32) (sitofp .f32 ddof)

/-- The variance of every row. -/
def varOf (x : FVec F S16x512x4096 .f32) (ddof : IVec S_ 32) : FVec F S16x512x1 .f32 :=
  select (broadcastInDim S16x512x1 ![] bcast_S_S16x512x1 (cmpf .ogt (divisor (F := F) ddof) (constant S_ .f32 0x00000000#32)))
    (Host.divf (rowSum (mulf (subf x (stretch (meanOf x))) (subf x (stretch (meanOf x))))) (splatOf (divisor ddof)))
    (splatOf (constant S_ .f32 0x7FC00000#32))

/-- The clamped standard deviation of every row. -/
def stdOf (x : FVec F S16x512x4096 .f32) (ddof : IVec S_ 32) : FVec F S16x512x1 .f32 :=
  maximumf (Host.sqrt (varOf x ddof)) (splatOf (constant S_ .f32 0x3727C5AC#32))

/-- The program's result. -/
def refTerm (X Z : FVec F S16x512x64x64 .f32) : FVec F S16x512x64x64 .f32 :=
  shapeCast S16x512x64x64
    (addf
      (mulf
        (Host.divf
          (subf (shapeCast S16x512x4096 X shapeCasts_S16x512x64x64_S16x512x4096)
            (stretch (meanOf (shapeCast S16x512x4096 X shapeCasts_S16x512x64x64_S16x512x4096))))
          (stretch (stdOf (shapeCast S16x512x4096 X shapeCasts_S16x512x64x64_S16x512x4096) (constantI S_ 32 1#32))))
        (stretch (stdOf (shapeCast S16x512x4096 Z shapeCasts_S16x512x64x64_S16x512x4096) (constantI S_ 32 1#32))))
      (stretch (meanOf (shapeCast S16x512x4096 Z shapeCasts_S16x512x64x64_S16x512x4096))))
    shapeCasts_S16x512x4096_S16x512x64x64

end Cert.ReferenceIdeal.RefTerm

end
-- ==== Proof.RefRun.lean ====
/-
  The reference program's run.

  The program is a straight line of 79 whole-array operations once its three outlined functions (the standard deviation,
  which calls the variance, which calls a select) are unfolded at their two call sites: nine operations of its own (the
  two reshapes to [16, 512, 4096], the first row sum and its mean, the integer 1), the 24 of the first standard
  deviation, its clamp (3), the second mean (7), the 24 of the second standard deviation, its clamp (3), and the last
  nine (centre, divide, multiply, add, each operand stretched along its row, and the reshape back).  Every operation
  writes a buffer of its own, so the contents of the result buffer after the line is the composition of the operations'
  functions over the two argument buffers, which are never written.
-/
import proofs.«164123_j67224828117169_2_alg».proof.ReferenceIdeal
import proofs.«164123_j67224828117169_2_alg».proof.Proof.Gen.ReferenceIdeal
import proofs.«164123_j67224828117169_2_alg».proof.Proof.RefTerm
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 79 operations in order, the calls unfolded over their buffer records. -/
abbrev ops : List (HloOp τ sig (Elt F)) :=
  [ reshape main_arg0 main_v0 rfl shapeCasts_S16x512x64x64_S16x512x4096,
    reshape main_arg1 main_v1 rfl shapeCasts_S16x512x64x64_S16x512x4096,
    nullary main_cst (constant S_ .f32 0x00000000#32),
    binary main_v0 main_cst main_v2 (fun x v => Host.reduceAdd x v reducesTo_S16x512x4096_S16x512_d2 h_S_),
    unary main_v2 main_v3 (broadcastInDim S16x512x1 ![0, 1] bcast_S16x512_S16x512x1_0_1),
    nullary main_cst_0 (constant S_ .f32 0x45800000#32),
    unary main_cst_0 main_v4 (broadcastInDim S16x512x1 ![] bcast_S_S16x512x1),
    binary main_v3 main_v4 main_v5 Host.divf,
    nullary main_c (constantI S_ 32 1#32),
    TRef.nullary main_call0.call0.cst (constant S_ .f32 0x00000000#32),
    TRef.binary (.of main_v0) main_call0.call0.cst main_call0.call0.v0 (fun x v => Host.reduceAdd x v reducesTo_S16x512x4096_S16x512_d2 h_S_),
    TRef.unary main_call0.call0.v0 main_call0.call0.v1 (broadcastInDim S16x512x1 ![0, 1] bcast_S16x512_S16x512x1_0_1),
    TRef.nullary main_call0.call0.cst_0 (constant S_ .f32 0x45800000#32),
    TRef.unary main_call0.call0.cst_0 main_call0.call0.v2 (broadcastInDim S16x512x1 ![] bcast_S_S16x512x1),
    TRef.binary main_call0.call0.v1 main_call0.call0.v2 main_call0.call0.v3 Host.divf,
    TRef.unary main_call0.call0.v3 main_call0.call0.v4 (broadcastInDim S16x512x4096 ![0, 1, 2] bcast_S16x512x1_S16x512x4096_0_1_2),
    TRef.binary (.of main_v0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x45800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16x512x4096_S16x512_d2 h_S_),
    TRef.unary main_call0.call0.v9 main_call0.call0.v10 (broadcastInDim S16x512x1 ![0, 1] bcast_S16x512_S16x512x1_0_1),
    TRef.unary main_call0.call0.v8 main_call0.call0.v11 (broadcastInDim S16x512x1 ![] bcast_S_S16x512x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S16x512x1 ![] bcast_S_S16x512x1),
    TRef.ternary main_call0.call0.v13 main_call0.call0.v12 main_call0.call0.call0.v1 main_call0.call0.call0.v2 (fun p a b => select (broadcastInDim S16x512x1 ![] bcast_S_S16x512x1 p) a b),
    TRef.unary main_call0.call0.call0.v2 main_call0.v1 Host.sqrt,
    nullary main_cst_1 (constant S_ .f32 0x3727C5AC#32),
    unary main_cst_1 main_v7 (broadcastInDim S16x512x1 ![] bcast_S_S16x512x1),
    binary main_v6 main_v7 main_v8 maximumf,
    nullary main_cst_2 (constant S_ .f32 0x00000000#32),
    binary main_v1 main_cst_2 main_v9 (fun x v => Host.reduceAdd x v reducesTo_S16x512x4096_S16x512_d2 h_S_),
    unary main_v9 main_v10 (broadcastInDim S16x512x1 ![0, 1] bcast_S16x512_S16x512x1_0_1),
    nullary main_cst_3 (constant S_ .f32 0x45800000#32),
    unary main_cst_3 main_v11 (broadcastInDim S16x512x1 ![] bcast_S_S16x512x1),
    binary main_v10 main_v11 main_v12 Host.divf,
    nullary main_c_4 (constantI S_ 32 1#32),
    TRef.nullary main_call1.call0.cst (constant S_ .f32 0x00000000#32),
    TRef.binary (.of main_v1) main_call1.call0.cst main_call1.call0.v0 (fun x v => Host.reduceAdd x v reducesTo_S16x512x4096_S16x512_d2 h_S_),
    TRef.unary main_call1.call0.v0 main_call1.call0.v1 (broadcastInDim S16x512x1 ![0, 1] bcast_S16x512_S16x512x1_0_1),
    TRef.nullary main_call1.call0.cst_0 (constant S_ .f32 0x45800000#32),
    TRef.unary main_call1.call0.cst_0 main_call1.call0.v2 (broadcastInDim S16x512x1 ![] bcast_S_S16x512x1),
    TRef.binary main_call1.call0.v1 main_call1.call0.v2 main_call1.call0.v3 Host.divf,
    TRef.unary main_call1.call0.v3 main_call1.call0.v4 (broadcastInDim S16x512x4096 ![0, 1, 2] bcast_S16x512x1_S16x512x4096_0_1_2),
    TRef.binary (.of main_v1) main_call1.call0.v4 main_call1.call0.v5 subf,
    TRef.binary main_call1.call0.v5 main_call1.call0.v5 main_call1.call0.v6 mulf,
    TRef.unary (.of main_c_4) main_call1.call0.v7 (sitofp .f32),
    TRef.nullary main_call1.call0.cst_1 (constant S_ .f32 0x45800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S16x512x4096_S16x512_d2 h_S_),
    TRef.unary main_call1.call0.v9 main_call1.call0.v10 (broadcastInDim S16x512x1 ![0, 1] bcast_S16x512_S16x512x1_0_1),
    TRef.unary main_call1.call0.v8 main_call1.call0.v11 (broadcastInDim S16x512x1 ![] bcast_S_S16x512x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S16x512x1 ![] bcast_S_S16x512x1),
    TRef.ternary main_call1.call0.v13 main_call1.call0.v12 main_call1.call0.call0.v1 main_call1.call0.call0.v2 (fun p a b => select (broadcastInDim S16x512x1 ![] bcast_S_S16x512x1 p) a b),
    TRef.unary main_call1.call0.call0.v2 main_call1.v1 Host.sqrt,
    nullary main_cst_5 (constant S_ .f32 0x3727C5AC#32),
    unary main_cst_5 main_v14 (broadcastInDim S16x512x1 ![] bcast_S_S16x512x1),
    binary main_v13 main_v14 main_v15 maximumf,
    unary main_v5 main_v16 (broadcastInDim S16x512x4096 ![0, 1, 2] bcast_S16x512x1_S16x512x4096_0_1_2),
    binary main_v0 main_v16 main_v17 subf,
    unary main_v8 main_v18 (broadcastInDim S16x512x4096 ![0, 1, 2] bcast_S16x512x1_S16x512x4096_0_1_2),
    binary main_v17 main_v18 main_v19 Host.divf,
    unary main_v15 main_v20 (broadcastInDim S16x512x4096 ![0, 1, 2] bcast_S16x512x1_S16x512x4096_0_1_2),
    binary main_v19 main_v20 main_v21 mulf,
    unary main_v12 main_v22 (broadcastInDim S16x512x4096 ![0, 1, 2] bcast_S16x512x1_S16x512x4096_0_1_2),
    binary main_v21 main_v22 main_v23 addf,
    reshape main_v23 main_v24 rfl shapeCasts_S16x512x4096_S16x512x64x64 ]

set_option maxRecDepth 4096 in
set_option maxHeartbeats 1000000 in
/-- The program is that straight line: each function's body stands at its call, and sequencing a sequence is
    sequencing its steps, so the two sides are one chain of steps by computation. -/
theorem main_eq (c : Dev nD) : main (F := F) c = seq ops := rfl

attribute [local irreducible] Host.reduceAdd in
set_option maxRecDepth 8192 in
set_option maxHeartbeats 1000000 in
/-- The result buffer after the line holds the composed term: the fold unrolled, every operation's result read at the
    buffer it writes and passed over elsewhere, the typed references' transports the identity at these literal
    buffers.  The row sum is kept folded meanwhile (its body is a sum over 4096 entries the equation never opens). -/
theorem out_eq (V : Valuation τ sig (Elt F)) :
    after ops V (main_v24 : DevRef τ sig)
      = RefTerm.refTerm (F := F) (V (main_arg0 : DevRef τ sig)) (V (main_arg1 : DevRef τ sig)) := by
  simp only [after_cons, after_nil]
  rfl

set_option maxRecDepth 8192 in
set_option maxHeartbeats 1000000 in
/-- No operation writes the first argument's buffer. -/
theorem arg0_eq (V : Valuation τ sig (Elt F)) :
    after ops V (main_arg0 : DevRef τ sig) = V (main_arg0 : DevRef τ sig) := by
  simp only [after_cons, after_nil]
  rfl

set_option maxRecDepth 8192 in
set_option maxHeartbeats 1000000 in
/-- No operation writes the second argument's buffer. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨reshape_bufs_sub .., reshape_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., unary_bufs_sub .., binary_bufs_sub .., unary_bufs_sub .., binary_bufs_sub ..,
    unary_bufs_sub .., binary_bufs_sub .., unary_bufs_sub .., binary_bufs_sub .., unary_bufs_sub .., binary_bufs_sub ..,
    reshape_bufs_sub ..⟩

/-- For any float values, from any memory with zero counters: every weakly fair execution of the program
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read back: the result buffer ends at the composed term of the two arguments' launch contents, and the
    arguments end unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v24)
          = Cert.ReferenceIdeal.RefTerm.refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (out_eq _), (h c main_arg0).trans (arg0_eq _),
      (h c main_arg1).trans (arg1_eq _)⟩) (run_main m ρ)

/-- The same at the extended reals, every operation exact. -/
theorem run_ideal (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = Cert.ReferenceIdeal.RefTerm.refTerm (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.ReferenceIdeal.RefRun

end
-- ==== Proof.RefReadOps.lean ====
/-
  The reference's sub-terms read at an index.

  Every column operation of the reference term is read at a place (b, c, u) of a [16, 512, 1] column or (b, c, k) of a
  [16, 512, 4096] array: a stretched column reads its one entry, a splat its scalar, a row sum the sum of the row's 4096
  entries (the initial value of the host's sum is the zero word), the mean that sum over 4096.
-/
import proofs.«164123_j67224828117169_2_alg».proof.Proof.RefTerm
import proofs.«164123_j67224828117169_2_alg».proof.Proof.Spec
import Idealize.ShloMosaic.Lib.Pipeline.Value
import Idealize.ShloMosaic.Lib.IdealHost
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.RefTerm
open Idealize.ShloMosaic Idealize.ShloMosaic.ValueIdx

/-- A stretched column reads, everywhere along a row, the row's one entry. -/
theorem stretch_apply (v : FVec Ideal S16x512x1 .f32) (b : Fin 16) (c : Fin 512) (k : Fin 4096) :
    stretch (F := Ideal) v (ix3 b c k) = v (ix3 b c (0 : Fin 1)) := by
  unfold stretch
  refine broadcastInDim_apply _ _ v (ix3 b c k) (ix3 b c (0 : Fin 1)) ?_
  intro a
  match a with
  | ⟨0, _⟩ => rfl
  | ⟨1, _⟩ => rfl
  | ⟨2, _⟩ => rfl

/-- A splat column reads its scalar. -/
theorem splatOf_apply (s : FVec Ideal S_ .f32) (b : Fin 16) (c : Fin 512) (u : Fin 1) :
    splatOf (F := Ideal) s (ix3 b c u) = s ix0 := by
  unfold splatOf
  exact broadcastInDim_scalar_apply _ s _

/-- The shape fact of the row sum, in the form that names the summed coordinate. -/
theorem reduces_row : S16x512x4096.Reduces [2] S16x512 := by decide

/-- A row sum is the sum of the row's entries. -/
theorem rowSum_apply (x : FVec Ideal S16x512x4096 .f32) (b : Fin 16) (c : Fin 512) (u : Fin 1) :
    rowSum (F := Ideal) x (ix3 b c u) = ∑ k : Fin 4096, x (ix3 b c k) := by
  unfold rowSum
  refine (broadcastInDim_apply _ _ _ (ix3 b c u) (ix2 b c) ?_).trans ?_
  · intro a
    match a with
    | ⟨0, _⟩ => rfl
    | ⟨1, _⟩ => rfl
  · refine (hostReduceAdd_apply x _ _ _ (ix2 b c)).trans ?_
    refine (Ideal.hostReduceAdd_single reducesTo_S16x512x4096_S16x512_d2 reduces_row x _ (ix2 b c)).trans ?_
    rw [constant_apply, Adain.ofBits_zero, zero_add]
    refine Finset.sum_congr rfl fun k _ => congrArg x ?_
    funext a
    match a with
    | ⟨0, _⟩ => rfl
    | ⟨1, _⟩ => rfl
    | ⟨2, _⟩ => rfl

/-- A row's mean is its sum over the word of 4096. -/
theorem meanOf_apply (x : FVec Ideal S16x512x4096 .f32) (b : Fin 16) (c : Fin 512) (u : Fin 1) :
    meanOf (F := Ideal) x (ix3 b c u) = Ideal.div (∑ k : Fin 4096, x (ix3 b c k)) Adain.c4096 := by
  unfold meanOf
  rw [hostDivf_apply, rowSum_apply, splatOf_apply, constant_apply]
  rfl

end Cert.ReferenceIdeal.RefRead

end
-- ==== Proof.RefReadStd.lean ====
/-
  The reference's variance and clamped standard deviation read at a place of the column.

  The variance's divisor is 4096 minus the integer 1 converted, the real 4095; it is positive, so the select on
  "the divisor is positive" takes the quotient and never the not-a-number splat.  The variance of row (b, c) is the sum
  of the squared centred entries over 4095, and the standard deviation its square root, clamped below.
-/
import proofs.«164123_j67224828117169_2_alg».proof.Proof.RefReadOps

noncomputable section

open scoped BigOperators

namespace Cert.ReferenceIdeal.RefRead

open Cert.ReferenceIdeal Cert.ReferenceIdeal.Gen Cert.ReferenceIdeal.RefTerm
open Idealize.ShloMosaic Idealize.ShloMosaic.ValueIdx

/-- The divisor with one degree of freedom removed is the word of 4095. -/
theorem divisor_one : divisor (F := Ideal) (constantI S_ 32 1#32) ix0 = Adain.c4095 := by
  unfold divisor
  rw [subf_apply, constant_apply, sitofp_apply]
  show Adain.c4096 - (((1#32 : BitVec 32).toInt : ℝ) : EReal) = Adain.c4095
  rw [Adain.c4096_eq, Adain.c4095_eq]
  have h1 : ((1#32 : BitVec 32).toInt) = 1 := by decide
  rw [h1, ← EReal.coe_sub]
  norm_num

/-- The divisor is positive: the comparison's bit is one. -/
theorem divisor_pos_bit :
    cmpf .ogt (divisor (F := Ideal) (constantI S_ 32 1#32)) (constant (F := Ideal) S_ .f32 0x00000000#32) ix0 = 1#1 := by
  rw [cmpf_apply, divisor_one, constant_apply, Adain.ofBits_zero, Adain.c4095_eq]
  show Ideal.cmp .ogt ((4095 : ℝ) : EReal) 0 = 1#1
  unfold Ideal.cmp
  have h : (0 : EReal) < ((4095 : ℝ) : EReal) := by
    rw [show (0 : EReal) = ((0 : ℝ) : EReal) from rfl]
    exact EReal.coe_lt_coe_iff.mpr (by norm_num)
  simp [h]

/-- The variance of a row: the squared centred entries summed, over 4095. -/
theorem varOf_apply (x : FVec Ideal S16x512x4096 .f32) (b : Fin 16) (c : Fin 512) (u : Fin 1) :
    varOf (F := Ideal) x (constantI S_ 32 1#32) (ix3 b c u)
      = Ideal.div (∑ j : Fin 4096, (x (ix3 b c j) - Ideal.div (∑ i : Fin 4096, x (ix3 b c i)) Adain.c4096)
          * (x (ix3 b c j) - Ideal.div (∑ i : Fin 4096, x (ix3 b c i)) Adain.c4096)) Adain.c4095 := by
  unfold varOf
  rw [select_apply, broadcastInDim_scalar_apply, divisor_pos_bit, select_one, hostDivf_apply, rowSum_apply,
    splatOf_apply, divisor_one]
  refine congrArg (fun s => Ideal.div s Adain.c4095) (Finset.sum_congr rfl fun j _ => ?_)
  rw [mulf_apply, subf_apply, stretch_apply, meanOf_apply]

/-- The clamped standard deviation of a row is the centred formula's. -/
theorem stdOf_apply (x : FVec Ideal S16x512x4096 .f32) (b : Fin 16) (c : Fin 512) (u : Fin 1) :
    stdOf (F := Ideal) x (constantI S_ 32 1#32) (ix3 b c u) = Adain.sdR (fun k => x (ix3 b c k)) := by
  unfold stdOf
  rw [maximumf_apply, splatOf_apply, constant_apply]
  show max (Ideal.sqrt (varOf (F := Ideal) x (constantI S_ 32 1#32) (ix3 b c u))) Adain.ceps = _
  rw [varOf_apply]
  rfl

end Cert.ReferenceIdeal.RefRead

end
-- ==== Proof.RefReadCast.lean ====
/-
  The two reshapes of the reference read at an index.

  [16, 512, 64, 64] and [16, 512, 4096] hold the same entries in the same row-major order: entry (b, c, k) of the
  flattened array is entry (b, c, k / 64, k % 64) of the original, and entry (b, c, h, w) of the array reshaped back
  is entry (b, c, h * 64 + w) of the flattened one.
-/
import proofs.«164123_j67224828117169_2_alg».proof.Proof.RefTerm
import proofs.«164123_j67224828117169_2_alg».proof.Proof.Spec
import Idealize.ShloMosaic.Lib.Pipeline.Value
import Idealize.ShloMosaic.Lib.ValueIdx

noncomputable section

namespace Cert.ReferenceIdeal.RefRead

open Cert.ReferenceIdeal Cert.ReferenceIdeal.Gen
open Idealize.ShloMosaic Idealize.ShloMosaic.ValueIdx

/-- The flattened array at (b, c, k) is row (b, c) of the original at k. -/
theorem flatten_apply (X : FVec Ideal S16x512x64x64 .f32) (b : Fin 16) (c : Fin 512) (k : Fin 4096) :
    shapeCast S16x512x4096 X shapeCasts_S16x512x64x64_S16x512x4096 (ix3 b c k) = Adain.rowAt X b c k := by
  unfold Adain.rowAt
  refine shapeCast_apply X _ (ix3 b c k) _ ?_
  rw [Shape.rowMajor_val_four, Shape.rowMajor_val_three]
  show (((b.val * 512 + c.val) * 64 + k.val / 64) * 64 + k.val % 64) = (b.val * 512 + c.val) * 4096 + k.val
  omega

/-- The array reshaped back at (b, c, h, w) is the flattened one at (b, c, h * 64 + w). -/
theorem unflatten_apply (y : FVec Ideal S16x512x4096 .f32) (b : Fin 16) (c : Fin 512) (h w : Fin 64) :
    shapeCast S16x512x64x64 y shapeCasts_S16x512x4096_S16x512x64x64 (ix4 b c h w) = y (ix3 b c (Adain.colAt h w)) := by
  refine shapeCast_apply y _ (ix4 b c h w) _ ?_
  rw [Shape.rowMajor_val_four, Shape.rowMajor_val_three]
  show (b.val * 512 + c.val) * 4096 + (h.val * 64 + w.val) = ((b.val * 512 + c.val) * 64 + h.val) * 64 + w.val
  omega

end Cert.ReferenceIdeal.RefRead

end
-- ==== Proof.RefRead.lean ====
/-
  The reference's result term is the centred row formula at every index.

  At index (b, c, h, w) the term reads, through the reshape back, place (b, c, h * 64 + w) of the flattened result:
  the flattened first array's entry minus its row's mean, over its row's clamped standard deviation, times that of
  the second array's row, plus the second row's mean; the flattened arrays' rows are the rows of the originals.
-/
import proofs.«164123_j67224828117169_2_alg».proof.Proof.RefReadStd
import proofs.«164123_j67224828117169_2_alg».proof.Proof.RefReadCast

noncomputable section

open scoped BigOperators

namespace Cert.ReferenceIdeal.RefRead

open Cert.ReferenceIdeal Cert.ReferenceIdeal.Gen Cert.ReferenceIdeal.RefTerm
open Idealize.ShloMosaic Idealize.ShloMosaic.ValueIdx

/-- Row (b, c) of the flattened array is row (b, c) of the original. -/
theorem flatten_row (X : FVec Ideal S16x512x64x64 .f32) (b : Fin 16) (c : Fin 512) :
    (fun k : Fin 4096 => shapeCast S16x512x4096 X shapeCasts_S16x512x64x64_S16x512x4096 (ix3 b c k)) = Adain.rowAt X b c :=
  funext fun k => flatten_apply X b c k

/-- The flattened result at a place of row (b, c), from the two flattened arrays. -/
theorem flat_apply (x z : FVec Ideal S16x512x4096 .f32) (b : Fin 16) (c : Fin 512) (k : Fin 4096) :
    addf
      (mulf
        (Host.divf (subf x (stretch (F := Ideal) (meanOf x)))
          (stretch (F := Ideal) (stdOf x (constantI S_ 32 1#32))))
        (stretch (F := Ideal) (stdOf z (constantI S_ 32 1#32))))
      (stretch (F := Ideal) (meanOf z)) (ix3 b c k)
      = Adain.rRow (fun j => x (ix3 b c j)) (fun j => z (ix3 b c j)) k := by
  rw [addf_apply, mulf_apply, hostDivf_apply, subf_apply, stretch_apply, stretch_apply, stretch_apply, stretch_apply,
    meanOf_apply, meanOf_apply, stdOf_apply, stdOf_apply]
  rfl

theorem refTerm_eq (X Z : FVec Ideal Cert.ReferenceIdeal.S16x512x64x64 .f32) :
    Cert.ReferenceIdeal.RefTerm.refTerm (F := Ideal) X Z = Adain.specR X Z := by
  funext i
  obtain ⟨b, c, h, w, rfl⟩ : ∃ (b : Fin 16) (c : Fin 512) (h w : Fin 64), i = ix4 b c h w :=
    ⟨i 0, i 1, i 2, i 3, eq_ix4 i⟩
  rw [Adain.specR_ix4]
  unfold refTerm
  refine (unflatten_apply _ b c h w).trans ?_
  refine (flat_apply _ _ b c (Adain.colAt h w)).trans ?_
  rw [flatten_row, flatten_row]

end Cert.ReferenceIdeal.RefRead

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.Law.lean ====
/-
  The two row formulas agree on rows of real numbers.

  For a row a of 4096 reals with sum S and mean μ = S / 4096, the second moment about the mean is
      Σ (a_j − μ)² = Σ a_j² − S² / 4096,
  so the two variances (each over 4095) are one non-negative real v, both clamped standard deviations are the one
  positive real σ = max (√v) ε, and with σ_x, σ_z positive reals
      (a_k − μ_x) · (σ_z / σ_x) + μ_z = (a_k − μ_x) / σ_x · σ_z + μ_z
  is an identity of the field of reals.  On the extended reals the same steps fail at the infinities (a quotient of
  infinities, a product with zero), which is why every entry is required to be a real number.
-/
import proofs.«164123_j67224828117169_2_alg».proof.Proof.Spec
import proofs.«164123_j67224828117169_2_alg».proof.Proof.LibRealSums

noncomputable section

open scoped BigOperators

namespace Adain

open Idealize.ShloMosaic

/-- The quotient of a real by a nonzero real, on the extended reals, is the real quotient. -/
theorem div_real (a : ℝ) {y : ℝ} (hy : y ≠ 0) : Ideal.div (a : EReal) (y : EReal) = ((a / y : ℝ) : EReal) := by
  rw [Ideal.div_coe hy, ← EReal.coe_mul]
  congr 1
  field_simp

/-- The square root of a non-negative real, on the extended reals, is the real square root. -/
theorem sqrt_real {v : ℝ} (hv : 0 ≤ v) : Ideal.sqrt (v : EReal) = ((Real.sqrt v : ℝ) : EReal) := by
  rw [Ideal.sqrt_coe, if_neg (not_lt.2 hv)]

/-- The coercion of the reals into the extended reals keeps a maximum. -/
theorem coe_max (a b : ℝ) : ((max a b : ℝ) : EReal) = max (a : EReal) (b : EReal) :=
  EReal.coe_strictMono.monotone.map_max

/-- The second moment about the mean from the two power sums. -/
theorem centred (a : Fin 4096 → ℝ) :
    ∑ j, (a j - (∑ i, a i) / 4096) * (a j - (∑ i, a i) / 4096)
      = (∑ j, a j * a j) - (∑ j, a j) * (∑ j, a j) / 4096 := by
  generalize hS : ∑ i, a i = S
  have h : ∀ j, (a j - S / 4096) * (a j - S / 4096) = a j * a j - 2 * (S / 4096) * a j + (S / 4096) * (S / 4096) :=
    fun j => by ring
  simp only [h, Finset.sum_add_distrib, Finset.sum_sub_distrib, ← Finset.mul_sum, Finset.sum_const, Finset.card_univ,
    Fintype.card_fin, nsmul_eq_mul, hS]
  push_cast
  ring

/-- Both clamped standard deviations of a row of reals are one positive real. -/
theorem sd_real (a : Fin 4096 → ℝ) :
    ∃ σ : ℝ, 0 < σ ∧ sdK (fun k => (a k : EReal)) = (σ : EReal) ∧ sdR (fun k => (a k : EReal)) = (σ : EReal) := by
  obtain ⟨e, he, hce⟩ := ceps_pos
  have h96 : (4096 : ℝ) ≠ 0 := by norm_num
  have h95 : (4095 : ℝ) ≠ 0 := by norm_num
  have hs1 : ∑ j, (a j : EReal) = ((∑ j, a j : ℝ) : EReal) := (RealSums.coe_sum_real _ _).symm
  have hs2 : ∑ j, (a j : EReal) * (a j : EReal) = ((∑ j, a j * a j : ℝ) : EReal) := by
    rw [RealSums.coe_sum_real]; exact Finset.sum_congr rfl fun r _ => (EReal.coe_mul _ _).symm
  have hv : 0 ≤ (∑ j, (a j - (∑ i, a i) / 4096) * (a j - (∑ i, a i) / 4096)) / 4095 :=
    div_nonneg (Finset.sum_nonneg fun r _ => mul_self_nonneg _) (by norm_num)
  refine ⟨max (Real.sqrt ((∑ j, (a j - (∑ i, a i) / 4096) * (a j - (∑ i, a i) / 4096)) / 4095)) e,
    lt_max_of_lt_right he, ?_, ?_⟩
  · unfold sdK
    rw [hs1, hs2, c4096_eq, c4095_eq, hce, ← EReal.coe_mul, div_real _ h96, ← EReal.coe_sub, div_real _ h95,
      ← centred a, sqrt_real hv, ← coe_max]
  · unfold sdR
    rw [hs1, c4096_eq, c4095_eq, hce, div_real _ h96]
    have hc : ∑ j, ((a j : EReal) - (((∑ i, a i) / 4096 : ℝ) : EReal)) * ((a j : EReal) - (((∑ i, a i) / 4096 : ℝ) : EReal))
        = ((∑ j, (a j - (∑ i, a i) / 4096) * (a j - (∑ i, a i) / 4096) : ℝ) : EReal) := by
      rw [RealSums.coe_sum_real]
      exact Finset.sum_congr rfl fun r _ => by rw [← EReal.coe_sub, ← EReal.coe_mul]
    rw [hc, div_real _ h95, sqrt_real hv, ← coe_max]

/-- THE LAW: on rows of real numbers the two row formulas are equal, entry by entry. -/
theorem kRow_eq_rRow (x z : Fin 4096 → EReal) (hx : ∀ k, ∃ r : ℝ, x k = (r : EReal)) (hz : ∀ k, ∃ r : ℝ, z k = (r : EReal))
    (k : Fin 4096) : kRow x z k = rRow x z k := by
  choose a ha using hx
  choose b hb using hz
  obtain rfl : x = fun k => (a k : EReal) := funext ha
  obtain rfl : z = fun k => (b k : EReal) := funext hb
  obtain ⟨σx, hσx, hKx, hRx⟩ := sd_real a
  obtain ⟨σz, hσz, hKz, hRz⟩ := sd_real b
  have h96 : (4096 : ℝ) ≠ 0 := by norm_num
  have hs1 : ∑ j, (a j : EReal) = ((∑ j, a j : ℝ) : EReal) := (RealSums.coe_sum_real _ _).symm
  have ht1 : ∑ j, (b j : EReal) = ((∑ j, b j : ℝ) : EReal) := (RealSums.coe_sum_real _ _).symm
  unfold kRow rRow
  rw [hKx, hKz, hRx, hRz, hs1, ht1, c4096_eq, div_real _ h96, div_real _ h96, div_real _ hσx.ne', ← EReal.coe_sub,
    div_real _ hσx.ne', ← EReal.coe_mul, ← EReal.coe_mul, ← EReal.coe_add, ← EReal.coe_add]
  refine congrArg (fun r : ℝ => (r : EReal)) ?_
  field_simp

/-- The two whole-array functions agree on arrays of real numbers: every row of such an array is a row of reals. -/
theorem specK_eq_specR (X Z : S4.Idx → EReal) (hX : ∀ i, ∃ r : ℝ, X i = (r : EReal)) (hZ : ∀ i, ∃ r : ℝ, Z i = (r : EReal)) :
    specK X Z = specR X Z := by
  funext i
  obtain ⟨b, c, h, w, rfl⟩ : ∃ (b : Fin 16) (c : Fin 512) (h w : Fin 64), i = ValueIdx.ix4 b c h w :=
    ⟨i 0, i 1, i 2, i 3, ValueIdx.eq_ix4 i⟩
  rw [specK_ix4, specR_ix4]
  exact kRow_eq_rRow _ _ (fun k => hX _) (fun k => hZ _) _

end Adain

end
-- ==== Proof.Finite.lean ====
/-
  From the precondition to "every entry is a real number".

  The precondition says that, over each of the two arrays, the conjunction of |x| < +∞ over all entries is true.  A
  conjunction over all entries that is true is true at each entry; and an extended real whose absolute value
  max x (−x) lies strictly below +∞ is neither +∞ nor −∞, so it is a real number.
-/
import proofs.«164123_j67224828117169_2_alg».proof.Pre_finite_inputs
import proofs.«164123_j67224828117169_2_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Adain.Finite

open Idealize.ShloMosaic Idealize.ShloMosaic.ValueIdx Cert.Pre_finite_inputs Cert.Pre_finite_inputs.Gen

instance : Subsingleton S_.Idx := ⟨fun a b => funext fun d => d.elim0⟩

/-- The word of +∞ reads as the top element. -/
theorem ofBits_inf : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One array: if "|x| < +∞ everywhere" reduces to true, every entry is a real number. -/
theorem real_of_all (X : FVec Ideal S16x512x64x64 .f32)
    (h : Host.reduce IntOp.andi (cmpf .olt (Host.absf X)
          (broadcastInDim S16x512x64x64 ![] bcast_S_S16x512x64x64 (constant (F := Ideal) S_ .f32 0x7F800000#32)))
        (constantI S_ 1 1#1) reducesTo_S16x512x64x64_S_d0_1_2_3 h_S_ ix0 = 1#1) (i : S16x512x64x64.Idx) :
    ∃ r : ℝ, X i = (r : EReal) := by
  have hi := Host.reduce_andi_all _ _ _ _ ix0 h i
  rw [cmpf_apply] at hi
  have hb : broadcastInDim S16x512x64x64 ![] bcast_S_S16x512x64x64 (constant (F := Ideal) S_ .f32 0x7F800000#32) i = (⊤ : EReal) :=
    (broadcastInDim_apply _ _ _ i ix0 (fun a => a.elim0)).trans ((constant_apply _ _).trans ofBits_inf)
  rw [hb] at hi
  have hc : BitVec.ofBool (decide (max (X i) (-(X i)) < (⊤ : EReal))) = 1#1 := hi
  refine real_of_abs_lt_top (X i) ?_
  by_contra hn
  rw [decide_eq_false hn] at hc
  exact absurd hc (by decide)

theorem finite_of_pre (X Z : FVec Ideal S16x512x64x64 .f32) (h : fn (F := Ideal) X Z = fun _ => 1#1) :
    (∀ i, ∃ r : ℝ, X i = (r : EReal)) ∧ (∀ i, ∃ r : ℝ, Z i = (r : EReal)) := by
  have h0 := congrFun h ix0
  dsimp only [fn] at h0
  obtain ⟨h1, h2⟩ := IntOp.andi_eq_one.1 h0
  exact ⟨real_of_all X h1, real_of_all Z h2⟩

end Adain.Finite

end
-- ==== Proof.lean ====
/-
  Adaptive instance normalisation: a tiled kernel against its array-language reference, on the extended reals.

  Both programs take two arrays soft, z of shape [16, 512, 64, 64] and normalise every row of soft (the 4096 entries of one
  (b, c)) by that row's mean and clamped standard deviation, then re-scale it with those of the matching row of z.
  The kernel works on the arrays reshaped to 8192 rows, 256 rows to a grid point; it gets each variance from the two power
  sums, Σ x² − (Σ x)² / 4096 over 4095, and multiplies the centred entry by the one quotient sd z / sd x.  The reference
  centres the row first, sums the squares of the centred entries over 4096 − 1, divides by sd x and then multiplies by
  sd z.  On real numbers the two variances are one number (the second moment about the mean), it is never negative, the
  clamp keeps both standard deviations positive, and the two ways of scaling are one identity of the field of reals.
  On the extended reals these steps need every entry to be a real number, which the precondition gives.

  The parts: Spec (the two row formulas and the whole-array functions), Law (they agree on real rows), Finite (the
  precondition makes every entry real), KPay and KValue (the kernel's run ends in the first whole-array function),
  RefTerm, RefRun and RefRead (the reference's run ends in the second), and here the five claims.
-/
import proofs.«164123_j67224828117169_2_alg».proof.Defs
import proofs.«164123_j67224828117169_2_alg».proof.Proof.Gen.Kernel
import proofs.«164123_j67224828117169_2_alg».proof.Proof.Gen.Kernel.Frame
import proofs.«164123_j67224828117169_2_alg».proof.Proof.Gen.KernelIdeal
import proofs.«164123_j67224828117169_2_alg».proof.Proof.Gen.KernelIdeal.Frame
import proofs.«164123_j67224828117169_2_alg».proof.Proof.Gen.ReferenceIdeal
import proofs.«164123_j67224828117169_2_alg».proof.Proof.Gen.Pre_finite_inputs
import proofs.«164123_j67224828117169_2_alg».proof.Proof.KValue
import proofs.«164123_j67224828117169_2_alg».proof.Proof.RefRun
import proofs.«164123_j67224828117169_2_alg».proof.Proof.RefRead
import proofs.«164123_j67224828117169_2_alg».proof.Proof.Law
import proofs.«164123_j67224828117169_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefRun.run m ρ)

/-- From memories that agree on the arguments the kernel ends at the first whole-array function of them and the reference at
    the second; the precondition makes every entry of both arguments a real number, and on such arrays the two functions are
    equal. -/
theorem algebraic : Cert.algebraic_KernelIdeal_ReferenceIdeal := by
  intro m ρ m' ρ' hpre hagree
  refine ⟨fun c => Adain.specK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun r h c => ⟨(h c).1.trans ?_, (h c).2⟩)
    (Cert.ReferenceIdeal.RefRun.run m' ρ')
  obtain ⟨hX, hZ⟩ := Adain.Finite.finite_of_pre _ _ (hpre c)
  rw [(hagree c).1, (hagree c).2, Cert.ReferenceIdeal.RefRead.refTerm_eq]
  exact (Adain.specK_eq_specR _ _ hX hZ).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
